-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 39
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x4096, .f32⟩
  | .hbm, ⟨24, _⟩ => ⟨S1024x4096, .bf16⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x4096, .f32⟩
  | .hbm, ⟨30, _⟩ => ⟨S1024x4096, .bf16⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S4096, .f32⟩
  | .hbm, ⟨36, _⟩ => ⟨S1x4096, .f32⟩
  | .hbm, ⟨37, _⟩ => ⟨S4096x1024, .f32⟩
  | .hbm, ⟨38, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S1024x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1024x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S1024x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S1024x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S1024x1024, .f32⟩
  | .hbm, ⟨75, _⟩ => ⟨S4096x1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_3 : Ref sig .tc := ⟨.hbm, 82, rfl⟩
abbrev main_v59 : Ref sig .tc := ⟨.hbm, 83, rfl⟩
abbrev main_v60 : Ref sig .tc := ⟨.hbm, 84, rfl⟩
abbrev main_cst_4 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.KernelFrame.lean ====
/-
  The frame of the program `Kernel`: every weakly fair execution of @main terminates, nothing faults, and the
  nineteen argument arrays end as they were launched.

  @main is a line of eighteen host operations (four transposes and a concatenation for each of the two fused weight
  matrices, a rounding of each to sixteen bits, four sums of bias pairs, their concatenation and a reshape to one
  row), then one grid of sixteen points.  At point t the body is handed rows 256·t … 256·t+255 of the input, hidden
  and cell arrays, the two fused weight matrices whole, the fused bias row whole, and two output blocks of 256 rows;
  it reads the six inputs, stores one value into each output block, covering it, and touches nothing else.  So:

  * no host operation writes an argument array, and the grid stages only three of them, as inputs: each argument
    array ends as launched (`V_kept`, `frame_of`);
  * the body, on whole staging buffers holding any six input blocks, ends with the inputs as they were and each
    output buffer at ONE function of the six blocks (`newHidden`, `newCell`: the stored value read back through
    the buffer, `sound_kernel`);
  * an input window's buffer holds the window's block of its array at every point, whether the pipeline fetched it
    there or (the three whole windows, after the first point) left it in place, since the body leaves inputs alone.

  The run (`run_main`) names what each output array holds afterwards; the frame claim forgets that.
  Stated for any float instance `F`.
-/
import proofs.«165927_j45088566673863_2_alg».proof.Proof.Gen.Kernel.Launch
import proofs.«165927_j45088566673863_2_alg».proof.Proof.Gen.Kernel.Skeleton
import proofs.«165927_j45088566673863_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the grid -/

/-- What core `c`'s buffers hold when the grid starts: the launch contents after the eighteen host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main reduces to the grid, holding the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The eighteen buffers the host operations write, one each. -/
abbrev hostWritten : List (Ref sig .tc) :=
  [main_v0, main_v1, main_v2, main_v3, main_v4, main_v5, main_v6, main_v7, main_v8, main_v9, main_v10, main_v11,
   main_v12, main_v13, main_v14, main_v15, main_v16, main_v17]

/-- A buffer that is none of those eighteen is found by the grid as it was launched. -/
theorem V_kept (c : Dev nD) (r : Ref sig .tc) (hr : ∀ y ∈ hostWritten, r ≠ y) : V m c r = m ((c : Thread nD τ).loc r) :=
  StableHlo.after_of_forall_not_mem (b := Proc.devRef .tc r) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (hr _ (by simp [hostWritten]))))

theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)
theorem V_main_arg2 (c : Dev nD) : V m c main_arg2 = m ((c : Thread nD τ).loc main_arg2) := V_kept m c main_arg2 (by decide)
theorem V_main_arg3 (c : Dev nD) : V m c main_arg3 = m ((c : Thread nD τ).loc main_arg3) := V_kept m c main_arg3 (by decide)
theorem V_main_arg4 (c : Dev nD) : V m c main_arg4 = m ((c : Thread nD τ).loc main_arg4) := V_kept m c main_arg4 (by decide)
theorem V_main_arg5 (c : Dev nD) : V m c main_arg5 = m ((c : Thread nD τ).loc main_arg5) := V_kept m c main_arg5 (by decide)
theorem V_main_arg6 (c : Dev nD) : V m c main_arg6 = m ((c : Thread nD τ).loc main_arg6) := V_kept m c main_arg6 (by decide)
theorem V_main_arg7 (c : Dev nD) : V m c main_arg7 = m ((c : Thread nD τ).loc main_arg7) := V_kept m c main_arg7 (by decide)
theorem V_main_arg8 (c : Dev nD) : V m c main_arg8 = m ((c : Thread nD τ).loc main_arg8) := V_kept m c main_arg8 (by decide)
theorem V_main_arg9 (c : Dev nD) : V m c main_arg9 = m ((c : Thread nD τ).loc main_arg9) := V_kept m c main_arg9 (by decide)
theorem V_main_arg10 (c : Dev nD) : V m c main_arg10 = m ((c : Thread nD τ).loc main_arg10) := V_kept m c main_arg10 (by decide)
theorem V_main_arg11 (c : Dev nD) : V m c main_arg11 = m ((c : Thread nD τ).loc main_arg11) := V_kept m c main_arg11 (by decide)
theorem V_main_arg12 (c : Dev nD) : V m c main_arg12 = m ((c : Thread nD τ).loc main_arg12) := V_kept m c main_arg12 (by decide)
theorem V_main_arg13 (c : Dev nD) : V m c main_arg13 = m ((c : Thread nD τ).loc main_arg13) := V_kept m c main_arg13 (by decide)
theorem V_main_arg14 (c : Dev nD) : V m c main_arg14 = m ((c : Thread nD τ).loc main_arg14) := V_kept m c main_arg14 (by decide)
theorem V_main_arg15 (c : Dev nD) : V m c main_arg15 = m ((c : Thread nD τ).loc main_arg15) := V_kept m c main_arg15 (by decide)
theorem V_main_arg16 (c : Dev nD) : V m c main_arg16 = m ((c : Thread nD τ).loc main_arg16) := V_kept m c main_arg16 (by decide)
theorem V_main_arg17 (c : Dev nD) : V m c main_arg17 = m ((c : Thread nD τ).loc main_arg17) := V_kept m c main_arg17 (by decide)
theorem V_main_arg18 (c : Dev nD) : V m c main_arg18 = m ((c : Thread nD τ).loc main_arg18) := V_kept m c main_arg18 (by decide)

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point: fetched there, or left in place by a body that
    does not change it while the block index has not moved. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point: fetched there, or left in place by a body that
    does not change it while the block index has not moved. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point: fetched there, or left in place by a body that
    does not change it while the block index has not moved. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point: fetched there, or left in place by a body that
    does not change it while the block index has not moved. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point: fetched there, or left in place by a body that
    does not change it while the block index has not moved. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point: fetched there, or left in place by a body that
    does not change it while the block index has not moved. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every window's array at what the proof data computes and every other unscoped buffer
    as the grid found it: the three staged arguments are inputs, so unchanged; the sixteen others are no window's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## What the body leaves in the two output buffers -/

/-- The whole of a 256-row block, of a fused weight matrix, of the bias row. -/
abbrev rRows : Rect S256x1024 := Rect.unit (s := S256x1024) ![0, 0] S256x1024.size inb_S256x1024_S256x1024_0_0
abbrev rWide : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The first output block after the body: the new hidden state of the 256 rows, stored whole. -/
def newHidden (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rRows, k0_pay3 (View.ld x0 rRows) (View.ld x1 rRows) (View.ld x2 rRows) (View.ld x3 rWide) (View.ld x4 rWide) (View.ld x5 rBias)⟩]

/-- The second output block after the body: the new cell state of the 256 rows, stored whole. -/
def newCell (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rRows, k0_pay2 (View.ld x0 rRows) (View.ld x1 rRows) (View.ld x2 rRows) (View.ld x3 rWide) (View.ld x4 rWide) (View.ld x5 rBias)⟩]

/-- One store of the whole block covers it. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 4000000 in
/-- On whole staging buffers, the six inputs' at contents `x0 … x5` and the two outputs' at anything, the body runs to
    its return holding the inputs' as they were and the outputs' at `newHidden` and `newCell` of the inputs. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 : Vec F S256x1024 .f32) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (newHidden x0 x1 x2 x3 x4 x5) ∗ owns (c : Thread nD τ) arg8 fullShare (newCell x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The proof data -/

/-- On core `c`: the arrays as the grid finds them; after the body at point `t` each input's buffer at its block and
    the two outputs' at the new hidden and cell states of the point's input blocks; the body keeps nothing else. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newHidden (iblk m c 0 t) (iblk m c 1 t) (iblk m c 2 t) (iblk m c 3 t) (iblk m c 4 t) (iblk m c 5 t)
    | ⟨7, _⟩ => newCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_hidden (c : Dev nD) (t : Fin cfg0.N) : (dats m 0 c).after 6 t = newHidden (iblk m c 0 t) (iblk m c 1 t) (iblk m c 2 t) (iblk m c 3 t) (iblk m c 4 t) (iblk m c 5 t) := by dsimp only [dats]
theorem after_cell (c : Dev nD) (t : Fin cfg0.N) : (dats m 0 c).after 7 t = newCell (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each window's array holds what the
    proof data computes and every other unscoped buffer what the grid found there. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Fr

end
-- ==== Proof.KernelIdealFrame.lean ====
/-
  The frame of the program `KernelIdeal`: every weakly fair execution of @main terminates, nothing faults, and the
  nineteen argument arrays end as they were launched.

  @main is a line of eighteen host operations (four transposes and a concatenation for each of the two fused weight
  matrices, a rounding of each to sixteen bits, four sums of bias pairs, their concatenation and a reshape to one
  row), then one grid of sixteen points.  At point t the body is handed rows 256·t … 256·t+255 of the input, hidden
  and cell arrays, the two fused weight matrices whole, the fused bias row whole, and two output blocks of 256 rows;
  it reads the six inputs, stores one value into each output block, covering it, and touches nothing else.  So:

  * no host operation writes an argument array, and the grid stages only three of them, as inputs: each argument
    array ends as launched (`V_kept`, `frame_of`);
  * the body, on whole staging buffers holding any six input blocks, ends with the inputs as they were and each
    output buffer at ONE function of the six blocks (`newHidden`, `newCell`: the stored value read back through
    the buffer, `sound_kernel`);
  * an input window's buffer holds the window's block of its array at every point, whether the pipeline fetched it
    there or (the three whole windows, after the first point) left it in place, since the body leaves inputs alone.

  The run (`run_main`) names what each output array holds afterwards; the frame claim forgets that.
  Stated for any float instance `F`.
-/
import proofs.«165927_j45088566673863_2_alg».proof.Proof.Gen.KernelIdeal.Launch
import proofs.«165927_j45088566673863_2_alg».proof.Proof.Gen.KernelIdeal.Skeleton
import proofs.«165927_j45088566673863_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the grid -/

/-- What core `c`'s buffers hold when the grid starts: the launch contents after the eighteen host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main reduces to the grid, holding the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The eighteen buffers the host operations write, one each. -/
abbrev hostWritten : List (Ref sig .tc) :=
  [main_v0, main_v1, main_v2, main_v3, main_v4, main_v5, main_v6, main_v7, main_v8, main_v9, main_v10, main_v11,
   main_v12, main_v13, main_v14, main_v15, main_v16, main_v17]

/-- A buffer that is none of those eighteen is found by the grid as it was launched. -/
theorem V_kept (c : Dev nD) (r : Ref sig .tc) (hr : ∀ y ∈ hostWritten, r ≠ y) : V m c r = m ((c : Thread nD τ).loc r) :=
  StableHlo.after_of_forall_not_mem (b := Proc.devRef .tc r) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (hr _ (by simp [hostWritten]))))

theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)
theorem V_main_arg2 (c : Dev nD) : V m c main_arg2 = m ((c : Thread nD τ).loc main_arg2) := V_kept m c main_arg2 (by decide)
theorem V_main_arg3 (c : Dev nD) : V m c main_arg3 = m ((c : Thread nD τ).loc main_arg3) := V_kept m c main_arg3 (by decide)
theorem V_main_arg4 (c : Dev nD) : V m c main_arg4 = m ((c : Thread nD τ).loc main_arg4) := V_kept m c main_arg4 (by decide)
theorem V_main_arg5 (c : Dev nD) : V m c main_arg5 = m ((c : Thread nD τ).loc main_arg5) := V_kept m c main_arg5 (by decide)
theorem V_main_arg6 (c : Dev nD) : V m c main_arg6 = m ((c : Thread nD τ).loc main_arg6) := V_kept m c main_arg6 (by decide)
theorem V_main_arg7 (c : Dev nD) : V m c main_arg7 = m ((c : Thread nD τ).loc main_arg7) := V_kept m c main_arg7 (by decide)
theorem V_main_arg8 (c : Dev nD) : V m c main_arg8 = m ((c : Thread nD τ).loc main_arg8) := V_kept m c main_arg8 (by decide)
theorem V_main_arg9 (c : Dev nD) : V m c main_arg9 = m ((c : Thread nD τ).loc main_arg9) := V_kept m c main_arg9 (by decide)
theorem V_main_arg10 (c : Dev nD) : V m c main_arg10 = m ((c : Thread nD τ).loc main_arg10) := V_kept m c main_arg10 (by decide)
theorem V_main_arg11 (c : Dev nD) : V m c main_arg11 = m ((c : Thread nD τ).loc main_arg11) := V_kept m c main_arg11 (by decide)
theorem V_main_arg12 (c : Dev nD) : V m c main_arg12 = m ((c : Thread nD τ).loc main_arg12) := V_kept m c main_arg12 (by decide)
theorem V_main_arg13 (c : Dev nD) : V m c main_arg13 = m ((c : Thread nD τ).loc main_arg13) := V_kept m c main_arg13 (by decide)
theorem V_main_arg14 (c : Dev nD) : V m c main_arg14 = m ((c : Thread nD τ).loc main_arg14) := V_kept m c main_arg14 (by decide)
theorem V_main_arg15 (c : Dev nD) : V m c main_arg15 = m ((c : Thread nD τ).loc main_arg15) := V_kept m c main_arg15 (by decide)
theorem V_main_arg16 (c : Dev nD) : V m c main_arg16 = m ((c : Thread nD τ).loc main_arg16) := V_kept m c main_arg16 (by decide)
theorem V_main_arg17 (c : Dev nD) : V m c main_arg17 = m ((c : Thread nD τ).loc main_arg17) := V_kept m c main_arg17 (by decide)
theorem V_main_arg18 (c : Dev nD) : V m c main_arg18 = m ((c : Thread nD τ).loc main_arg18) := V_kept m c main_arg18 (by decide)

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point: fetched there, or left in place by a body that
    does not change it while the block index has not moved. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point: fetched there, or left in place by a body that
    does not change it while the block index has not moved. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point: fetched there, or left in place by a body that
    does not change it while the block index has not moved. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point: fetched there, or left in place by a body that
    does not change it while the block index has not moved. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point: fetched there, or left in place by a body that
    does not change it while the block index has not moved. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point: fetched there, or left in place by a body that
    does not change it while the block index has not moved. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every window's array at what the proof data computes and every other unscoped buffer
    as the grid found it: the three staged arguments are inputs, so unchanged; the sixteen others are no window's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## What the body leaves in the two output buffers -/

/-- The whole of a 256-row block, of a fused weight matrix, of the bias row. -/
abbrev rRows : Rect S256x1024 := Rect.unit (s := S256x1024) ![0, 0] S256x1024.size inb_S256x1024_S256x1024_0_0
abbrev rWide : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The first output block after the body: the new hidden state of the 256 rows, stored whole. -/
def newHidden (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rRows, k0_pay3 (View.ld x0 rRows) (View.ld x1 rRows) (View.ld x2 rRows) (View.ld x3 rWide) (View.ld x4 rWide) (View.ld x5 rBias)⟩]

/-- The second output block after the body: the new cell state of the 256 rows, stored whole. -/
def newCell (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  View.canon [⟨rRows, k0_pay2 (View.ld x0 rRows) (View.ld x1 rRows) (View.ld x2 rRows) (View.ld x3 rWide) (View.ld x4 rWide) (View.ld x5 rBias)⟩]

/-- One store of the whole block covers it. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 4000000 in
/-- On whole staging buffers, the six inputs' at contents `x0 … x5` and the two outputs' at anything, the body runs to
    its return holding the inputs' as they were and the outputs' at `newHidden` and `newCell` of the inputs. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 : Vec F S256x1024 .f32) (x1 : Vec F S256x1024 .f32) (x2 : Vec F S256x1024 .f32) (x3 : Vec F S1024x4096 .bf16) (x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (newHidden x0 x1 x2 x3 x4 x5) ∗ owns (c : Thread nD τ) arg8 fullShare (newCell x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The proof data -/

/-- On core `c`: the arrays as the grid finds them; after the body at point `t` each input's buffer at its block and
    the two outputs' at the new hidden and cell states of the point's input blocks; the body keeps nothing else. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newHidden (iblk m c 0 t) (iblk m c 1 t) (iblk m c 2 t) (iblk m c 3 t) (iblk m c 4 t) (iblk m c 5 t)
    | ⟨7, _⟩ => newCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_hidden (c : Dev nD) (t : Fin cfg0.N) : (dats m 0 c).after 6 t = newHidden (iblk m c 0 t) (iblk m c 1 t) (iblk m c 2 t) (iblk m c 3 t) (iblk m c 4 t) (iblk m c 5 t) := by dsimp only [dats]
theorem after_cell (c : Dev nD) (t : Fin cfg0.N) : (dats m 0 c).after 7 t = newCell (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each window's array holds what the
    proof data computes and every other unscoped buffer what the grid found there. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Fr

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.KernelIdealPayload.lean ====
/-
  What the kernel's body stores, read at an index, on the extended reals.

  At a grid point the body holds a block of 256 input rows `x`, the matching 256 hidden rows `h` and cell rows
  `cc`, the two fused weight matrices `wx`, `wh` (1024 features by 4·1024 gate columns) and the fused bias row
  `b` (one row of 4·1024 columns).  It forms, for row p and gate column q,
      z[p,q] = (Σₖ x[p,k]·wx[k,q] + Σₖ h[p,k]·wh[k,q]) + b[0,q]
  (two matrix products into zero, added, plus the bias row repeated down the rows), cuts z into four runs of 1024
  columns — input gate, forget gate, candidate, output gate —, and stores
      cell'[p,j]   = σ(z[p,1024+j]) · cc[p,j] + σ(z[p,j]) · tanh(z[p,2048+j])
      hidden'[p,j] = σ(z[p,3072+j]) · tanh(cell'[p,j]).
  Rounding the two row blocks to sixteen bits before the products is the identity on the extended reals.
-/
import proofs.«165927_j45088566673863_2_alg».proof.Proof.Gen.KernelIdeal.Skeleton
import proofs.«165927_j45088566673863_2_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx
open scoped BigOperators

variable (x h cc : FVec Ideal S256x1024 .f32) (wx wh : FVec Ideal S1024x4096 .bf16) (b : FVec Ideal S1x4096 .f32)

/-- The fused pre-activation at row `p`, gate column `q`. -/
def z (p : Fin 256) (q : Fin 4096) : EReal :=
  (∑ k : Fin 1024, x (ix2 p k) * wx (ix2 k q) + ∑ k : Fin 1024, h (ix2 p k) * wh (ix2 k q)) + b (ix2 (0 : Fin 1) q)

/-- The body's pre-activation value is `z`. -/
theorem fused_apply (p : Fin 256) (q : Fin 4096) :
    k0_pay1 (F := Ideal) x h wx wh b (ix2 p q) = z x h wx wh b p q := by
  have hwx : shapeCast S1024x4096 wx shapeCasts_S1024x4096_S1024x4096 = wx := shapeCast_self wx _
  have hwh : shapeCast S1024x4096 wh shapeCasts_S1024x4096_S1024x4096 = wh := shapeCast_self wh _
  have hb : shapeCast S1x4096 b shapeCasts_S1x4096_S1x4096 = b := shapeCast_self b _
  unfold k0_pay1 z
  simp only [hwx, hwh, hb]
  exact congrArg₂ (· + ·) (congrArg₂ (· + ·)
      (Cert.Lib.PlainMatmul.matmul_zero_apply dot_S256x1024_S1024x4096_S256x4096_1_0_0_1_n_n rfl rfl rfl rfl rfl rfl none
        (truncf .bf16 x bitsLt_bf16_f32) wx p q)
      (Cert.Lib.PlainMatmul.matmul_zero_apply dot_S256x1024_S1024x4096_S256x4096_1_0_0_1_n_n rfl rfl rfl rfl rfl rfl none
        (truncf .bf16 h bitsLt_bf16_f32) wh p q))
    (broadcastTo_1b_ab_apply b broadcasts_S1x4096_S256x4096 p q)

/-- Column `j` of gate `g`'s run of 1024 columns among the 4096. -/
def col (g : Fin 4) (j : Fin 1024) : Fin 4096 := ⟨g.val * 1024 + j.val, by have := g.isLt; have := j.isLt; omega⟩

/-- The new cell state the body stores, at row `p`, unit `j`: the forget gate times the old cell state plus the
    input gate times the candidate. -/
theorem cell_apply (p : Fin 256) (j : Fin 1024) :
    k0_pay2 (F := Ideal) x h cc wx wh b (ix2 p j)
      = Ideal.logistic (z x h wx wh b p (col 1 j)) * cc (ix2 p j)
        + Ideal.logistic (z x h wx wh b p (col 0 j)) * Ideal.tanh (z x h wx wh b p (col 2 j)) := by
  have e0 := slice2_axis1_apply 0 (k0_pay1 (F := Ideal) x h wx wh b) slices_S256x4096_o0_0_S256x1024 p j (col 0 j)
    (by show 0 * 1024 + j.val = 0 + j.val; omega)
  have e1 := slice2_axis1_apply 1024 (k0_pay1 (F := Ideal) x h wx wh b) slices_S256x4096_o0_1024_S256x1024 p j (col 1 j)
    (by show 1 * 1024 + j.val = 1024 + j.val; omega)
  have e2 := slice2_axis1_apply 2048 (k0_pay1 (F := Ideal) x h wx wh b) slices_S256x4096_o0_2048_S256x1024 p j (col 2 j)
    (by show 2 * 1024 + j.val = 2048 + j.val; omega)
  rw [fused_apply] at e0 e1 e2
  unfold k0_pay2
  show Ideal.logistic (extractStridedSlice S256x1024 ![0, 1024] (k0_pay1 (F := Ideal) x h wx wh b) slices_S256x4096_o0_1024_S256x1024 (ix2 p j)) * cc (ix2 p j)
      + Ideal.logistic (extractStridedSlice S256x1024 ![0, 0] (k0_pay1 (F := Ideal) x h wx wh b) slices_S256x4096_o0_0_S256x1024 (ix2 p j))
        * Ideal.tanh (extractStridedSlice S256x1024 ![0, 2048] (k0_pay1 (F := Ideal) x h wx wh b) slices_S256x4096_o0_2048_S256x1024 (ix2 p j)) = _
  rw [e0, e1, e2]

/-- The new hidden state the body stores, at row `p`, unit `j`: the output gate times tanh of the new cell state. -/
theorem hidden_apply (p : Fin 256) (j : Fin 1024) :
    k0_pay3 (F := Ideal) x h cc wx wh b (ix2 p j)
      = Ideal.logistic (z x h wx wh b p (col 3 j)) * Ideal.tanh (k0_pay2 (F := Ideal) x h cc wx wh b (ix2 p j)) := by
  have e3 := slice2_axis1_apply 3072 (k0_pay1 (F := Ideal) x h wx wh b) slices_S256x4096_o0_3072_S256x1024 p j (col 3 j)
    (by show 3 * 1024 + j.val = 3072 + j.val; omega)
  rw [fused_apply] at e3
  unfold k0_pay3
  show Ideal.logistic (extractStridedSlice S256x1024 ![0, 3072] (k0_pay1 (F := Ideal) x h wx wh b) slices_S256x4096_o0_3072_S256x1024 (ix2 p j))
      * Ideal.tanh (k0_pay2 (F := Ideal) x h cc wx wh b (ix2 p j)) = _
  rw [e3]

end Cert.KernelIdeal.Pay

end
-- ==== Proof.LstmSpec.lean ====
/-
  The LSTM cell that both programs compute, stated once on the extended reals.

  For a batch row `r` and a hidden unit `c`, each of the four gates (input, forget, candidate, output) has a
  pre-activation
      ( Σₖ x[r,k] · Wᵢ[c,k]  +  bᵢ[c] )  +  ( Σₖ h[r,k] · Wₕ[c,k]  +  bₕ[c] ),
  two affine maps of the input row and of the hidden row, added.  The new cell state is
      c'[r,c] = σ(pre_f) · c[r,c] + σ(pre_i) · tanh(pre_g)
  and the new hidden state is
      h'[r,c] = σ(pre_o) · tanh(c'[r,c]),
  with σ the logistic function 1 / (1 + e^(-t)) and tanh the hyperbolic tangent, both extended to ±∞ by their limits.

  One program adds the two matrix products first and the two biases first, and then adds the two sums; the other
  adds each bias to its own product.  On the extended reals addition is commutative and associative at every value,
  the infinities included, so the two groupings are one number (`Gate.fused_eq_pre`); no finiteness is used.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx
open scoped BigOperators

/-- A batch of rows: 4096 rows of 1024 features. -/
abbrev Rows : Shape := ⟨2, ![4096, 1024]⟩
/-- A weight matrix, one row per output unit: 1024 output units by 1024 input features. -/
abbrev Wts : Shape := ⟨2, ![1024, 1024]⟩
/-- A bias, one entry per output unit. -/
abbrev Bias : Shape := ⟨1, ![1024]⟩

/-- The parameters of one gate: the weight and bias applied to the input row, and those applied to the hidden row. -/
structure Gate where
  wi : Wts.Idx → EReal
  bi : Bias.Idx → EReal
  wh : Wts.Idx → EReal
  bh : Bias.Idx → EReal

/-- Row `r` of `x` against row `c` of `w`: the entry (r, c) of x · wᵀ. -/
def proj (x : Rows.Idx → EReal) (w : Wts.Idx → EReal) (r : Fin 4096) (c : Fin 1024) : EReal :=
  ∑ k : Fin 1024, x (ix2 r k) * w (ix2 c k)

/-- A gate's pre-activation with each bias added to its own product. -/
def Gate.pre (g : Gate) (x h : Rows.Idx → EReal) (r : Fin 4096) (c : Fin 1024) : EReal :=
  (proj x g.wi r c + g.bi (ix1 c)) + (proj h g.wh r c + g.bh (ix1 c))

/-- The same pre-activation with the two products added first and the two biases added first. -/
def Gate.fused (g : Gate) (x h : Rows.Idx → EReal) (r : Fin 4096) (c : Fin 1024) : EReal :=
  (proj x g.wi r c + proj h g.wh r c) + (g.bi (ix1 c) + g.bh (ix1 c))

/-- The two groupings agree: (a + b) + (p + q) = (a + p) + (b + q) in any commutative additive monoid. -/
theorem Gate.fused_eq_pre (g : Gate) (x h : Rows.Idx → EReal) (r : Fin 4096) (c : Fin 1024) :
    g.fused x h r c = g.pre x h r c :=
  add_add_add_comm _ _ _ _

/-- The new cell state at (r, c). -/
def cellAt (gi gf gg : Gate) (x h cc : Rows.Idx → EReal) (r : Fin 4096) (c : Fin 1024) : EReal :=
  Ideal.logistic (gf.pre x h r c) * cc (ix2 r c) + Ideal.logistic (gi.pre x h r c) * Ideal.tanh (gg.pre x h r c)

/-- The new hidden state at (r, c). -/
def hiddenAt (gi gf gg go : Gate) (x h cc : Rows.Idx → EReal) (r : Fin 4096) (c : Fin 1024) : EReal :=
  Ideal.logistic (go.pre x h r c) * Ideal.tanh (cellAt gi gf gg x h cc r c)

/-- The new cell state as an array. -/
def cell (gi gf gg : Gate) (x h cc : Rows.Idx → EReal) : Rows.Idx → EReal :=
  fun j => cellAt gi gf gg x h cc (j 0) (j 1)

/-- The new hidden state as an array. -/
def hidden (gi gf gg go : Gate) (x h cc : Rows.Idx → EReal) : Rows.Idx → EReal :=
  fun j => hiddenAt gi gf gg go x h cc (j 0) (j 1)

theorem cell_ix2 (gi gf gg : Gate) (x h cc : Rows.Idx → EReal) (r : Fin 4096) (c : Fin 1024) :
    cell gi gf gg x h cc (ix2 r c) = cellAt gi gf gg x h cc r c := rfl

theorem hidden_ix2 (gi gf gg go : Gate) (x h cc : Rows.Idx → EReal) (r : Fin 4096) (c : Fin 1024) :
    hidden gi gf gg go x h cc (ix2 r c) = hiddenAt gi gf gg go x h cc r c := rfl

/-- The logistic function as the quotient the host spells: 1 / (1 + e^(-t)), by definition. -/
theorem logistic_eq (t : EReal) : Ideal.div 1 (1 + Ideal.exp (-t)) = Ideal.logistic t := rfl

end Cert.Lstm

end
-- ==== Proof.KernelIdealBlock.lean ====
/-
  A point's stored blocks are blocks of the specification.

  Let the point handle rows 256·n … 256·n+255 of the whole arrays `X` (input), `H` (hidden) and `C` (cell): its
  three row blocks read row p as row 256·n+p.  Let its fused weight matrices hold, at feature k and column j of
  gate g's run, the gate's weight at (unit j, feature k), and its fused bias row the sum of the gate's two biases at
  unit j.  Then the fused pre-activation z[p, g·1024+j] is the gate's pre-activation at row 256·n+p, unit j, in
  the grouping (product + product) + (bias + bias), which is the specification's grouping (product + bias) +
  (product + bias) because addition of extended reals is commutative and associative.  So the two values the body
  stores are the specification's new cell and hidden states at row 256·n+p.
-/
import proofs.«165927_j45088566673863_2_alg».proof.Proof.KernelIdealPayload
import proofs.«165927_j45088566673863_2_alg».proof.Proof.LstmSpec

noncomputable section

namespace Cert.KernelIdeal.Block

open Cert.KernelIdeal Cert.KernelIdeal.Gen Cert.KernelIdeal.Pay Idealize.ShloMosaic Idealize.ShloMosaic.ValueIdx
open Cert.Lstm
open scoped BigOperators

/-- Row `p` of the `n`-th block of 256 rows, among the 4096. -/
def row (n : Fin 16) (p : Fin 256) : Fin 4096 := ⟨256 * n.val + p.val, by have := n.isLt; have := p.isLt; omega⟩

variable (x h cc : FVec Ideal S256x1024 .f32) (wx wh : FVec Ideal S1024x4096 .bf16) (b : FVec Ideal S1x4096 .f32)
variable (X H C : Rows.Idx → EReal) (n : Fin 16)

/-- What it means for the point's six blocks to be the `n`-th row blocks of `X`, `H`, `C` and the fused parameters
    of the four gates `G 0 … G 3` (input, forget, candidate, output). -/
structure Holds (G : Fin 4 → Gate) : Prop where
  hx : ∀ (p : Fin 256) (k : Fin 1024), x (ix2 p k) = X (ix2 (row n p) k)
  hh : ∀ (p : Fin 256) (k : Fin 1024), h (ix2 p k) = H (ix2 (row n p) k)
  hc : ∀ (p : Fin 256) (j : Fin 1024), cc (ix2 p j) = C (ix2 (row n p) j)
  hwx : ∀ (k : Fin 1024) (g : Fin 4) (j : Fin 1024), wx (ix2 k (col g j)) = (G g).wi (ix2 j k)
  hwh : ∀ (k : Fin 1024) (g : Fin 4) (j : Fin 1024), wh (ix2 k (col g j)) = (G g).wh (ix2 j k)
  hb : ∀ (g : Fin 4) (j : Fin 1024), b (ix2 (0 : Fin 1) (col g j)) = (G g).bi (ix1 j) + (G g).bh (ix1 j)

variable {x h cc wx wh b X H C n}

/-- The fused pre-activation in gate `g`'s run is the gate's pre-activation at the point's row. -/
theorem z_eq_pre {G : Fin 4 → Gate} (hyp : Holds x h cc wx wh b X H C n G) (p : Fin 256) (g : Fin 4) (j : Fin 1024) :
    z x h wx wh b p (col g j) = (G g).pre X H (row n p) j := by
  rw [← Gate.fused_eq_pre]
  unfold z Gate.fused proj
  rw [hyp.hb g j]
  refine congrArg₂ (· + ·) (congrArg₂ (· + ·) ?_ ?_) rfl
  · exact Finset.sum_congr rfl fun k _ => by rw [hyp.hx p k, hyp.hwx k g j]
  · exact Finset.sum_congr rfl fun k _ => by rw [hyp.hh p k, hyp.hwh k g j]

/-- The stored cell block is the specification's new cell state at the point's rows. -/
theorem cell_block {G : Fin 4 → Gate} (hyp : Holds x h cc wx wh b X H C n G) (p : Fin 256) (j : Fin 1024) :
    k0_pay2 (F := Ideal) x h cc wx wh b (ix2 p j) = cell (G 0) (G 1) (G 2) X H C (ix2 (row n p) j) := by
  rw [cell_apply, z_eq_pre hyp, z_eq_pre hyp, z_eq_pre hyp, hyp.hc p j]
  rfl

/-- The stored hidden block is the specification's new hidden state at the point's rows. -/
theorem hidden_block {G : Fin 4 → Gate} (hyp : Holds x h cc wx wh b X H C n G) (p : Fin 256) (j : Fin 1024) :
    k0_pay3 (F := Ideal) x h cc wx wh b (ix2 p j) = hidden (G 0) (G 1) (G 2) (G 3) X H C (ix2 (row n p) j) := by
  rw [hidden_apply, z_eq_pre hyp, cell_block hyp]
  rfl

end Cert.KernelIdeal.Block

end
-- ==== Proof.KernelIdealHost.lean ====
/-
  The parameters as the grid receives them, read at an index.

  Before the grid starts, the four gates' weight matrices of one side (each 1024 output units by 1024 features) are
  transposed and laid side by side into one matrix of 1024 features by 4·1024 gate columns, which is then rounded to
  sixteen bits (the identity on the extended reals): at feature `k`, column `j` of gate `g`'s run, the fused
  matrix holds the gate's weight at (unit j, feature k).  The four pairs of biases are added, the four sums laid end
  to end and reshaped to one row: at column `j` of gate `g`'s run the row holds the sum of the gate's two biases
  at unit `j`.
-/
import proofs.«165927_j45088566673863_2_alg».proof.Proof.KernelIdealPayload
import Idealize.ShloMosaic.Lib.ValueLayout
import Idealize.ShloMosaic.Lib.Pipeline.Value

noncomputable section

namespace Cert.KernelIdeal.Host

open Cert.KernelIdeal Cert.KernelIdeal.Gen Cert.KernelIdeal.Pay Idealize.ShloMosaic Idealize.ShloMosaic.ValueIdx

/-- Four square matrices side by side: column `j` of the `g`-th run is column `j` of the `g`-th matrix. -/
theorem sideBySide_apply {α : Type} (u : Fin 4 → S1024x1024.Idx → α)
    (hc : Shape.Concatenates [S1024x1024, S1024x1024, S1024x1024, S1024x1024] S1024x4096 1)
    (k : Fin 1024) (g : Fin 4) (j : Fin 1024) :
    concatenate S1024x4096 1 [⟨S1024x1024, u 0⟩, ⟨S1024x1024, u 1⟩, ⟨S1024x1024, u 2⟩, ⟨S1024x1024, u 3⟩] hc (ix2 k (col g j))
      = u g (ix2 k j) :=
  concatenate_apply_piece (t := S1024x4096) (1 : Fin 2) [⟨S1024x1024, u 0⟩, ⟨S1024x1024, u 1⟩, ⟨S1024x1024, u 2⟩, ⟨S1024x1024, u 3⟩] hc (ix2 k (col g j)) g.val g.isLt S1024x1024 (u g)
    (by fin_cases g <;> rfl) rfl (g.val * 1024) (by fin_cases g <;> rfl) (ix2 k j)
    (fun b hb => by
      match b with
      | ⟨0, _⟩ => rfl
      | ⟨1, _⟩ => exact absurd rfl hb)
    rfl

/-- Four vectors end to end: entry `j` of the `g`-th run is entry `j` of the `g`-th vector. -/
theorem endToEnd_apply {α : Type} (v : Fin 4 → S1024.Idx → α)
    (hc : Shape.Concatenates [S1024, S1024, S1024, S1024] S4096 0) (g : Fin 4) (j : Fin 1024) :
    concatenate S4096 0 [⟨S1024, v 0⟩, ⟨S1024, v 1⟩, ⟨S1024, v 2⟩, ⟨S1024, v 3⟩] hc (ix1 (col g j)) = v g (ix1 j) :=
  concatenate_apply_piece (t := S4096) (0 : Fin 1) [⟨S1024, v 0⟩, ⟨S1024, v 1⟩, ⟨S1024, v 2⟩, ⟨S1024, v 3⟩] hc (ix1 (col g j)) g.val g.isLt S1024 (v g)
    (by fin_cases g <;> rfl) rfl (g.val * 1024) (by fin_cases g <;> rfl) (ix1 j)
    (fun b hb => by
      match b with
      | ⟨0, _⟩ => exact absurd rfl hb)
    rfl

/-- The fused weight matrix of one side, at feature `k` and column `j` of gate `g`: the gate's weight at (j, k). -/
theorem fusedWeight_apply (w : Fin 4 → FVec Ideal S1024x1024 .f32) (k : Fin 1024) (g : Fin 4) (j : Fin 1024) :
    (truncf .bf16
        (concatenate S1024x4096 1
          [⟨S1024x1024, transpose S1024x1024 [1, 0] (w 0) transposes_S1024x1024_S1024x1024_1_0⟩,
           ⟨S1024x1024, transpose S1024x1024 [1, 0] (w 1) transposes_S1024x1024_S1024x1024_1_0⟩,
           ⟨S1024x1024, transpose S1024x1024 [1, 0] (w 2) transposes_S1024x1024_S1024x1024_1_0⟩,
           ⟨S1024x1024, transpose S1024x1024 [1, 0] (w 3) transposes_S1024x1024_S1024x1024_1_0⟩]
          concatenates_S1024x1024_S1024x1024_S1024x1024_S1024x1024_S1024x4096_d1)
        bitsLt_bf16_f32 : FVec Ideal S1024x4096 .bf16) (ix2 k (col g j))
      = w g (ix2 j k) := by
  refine (truncf_apply _ bitsLt_bf16_f32 (ix2 k (col g j))).trans ?_
  exact (sideBySide_apply (fun g' => transpose S1024x1024 [1, 0] (w g') transposes_S1024x1024_S1024x1024_1_0)
      concatenates_S1024x1024_S1024x1024_S1024x1024_S1024x1024_S1024x4096_d1 k g j).trans
    (transpose_ix2_apply (w g) transposes_S1024x1024_S1024x1024_1_0 k j)

/-- The fused bias row, at column `j` of gate `g`: the sum of the gate's two biases at `j`. -/
theorem fusedBias_apply (a b : Fin 4 → FVec Ideal S1024 .f32) (u : Fin 1) (g : Fin 4) (j : Fin 1024) :
    shapeCast S1x4096
        (concatenate S4096 0 [⟨S1024, addf (a 0) (b 0)⟩, ⟨S1024, addf (a 1) (b 1)⟩, ⟨S1024, addf (a 2) (b 2)⟩, ⟨S1024, addf (a 3) (b 3)⟩]
          concatenates_S1024_S1024_S1024_S1024_S4096_d0)
        shapeCasts_S4096_S1x4096 (ix2 u (col g j))
      = a g (ix1 j) + b g (ix1 j) :=
  (shapeCast_a_1a_apply _ shapeCasts_S4096_S1x4096 u (col g j)).trans
    (endToEnd_apply (fun g' => addf (a g') (b g')) concatenates_S1024_S1024_S1024_S1024_S4096_d0 g j)

end Cert.KernelIdeal.Host

end
-- ==== Proof.KernelIdealValue.lean ====
/-
  What the kernel program's two result arrays hold after its run, on the extended reals: the specification's new
  hidden state and new cell state of the argument arrays.

  Grid point t (of sixteen) is handed rows 256·t … 256·t+255 of the input, hidden and cell arrays, and the fused
  parameters whole; these are the argument arrays themselves (no host operation writes them) and, for the fused
  parameters, the transposed weights side by side and the summed biases end to end.  So the point's six blocks
  satisfy the hypotheses under which the stored blocks are the specification's at rows 256·t … 256·t+255: what
  the point writes back to a result array is block t of the specification's array.  The sixteen blocks cover the
  4096 rows (row r lies in block r / 256), so each result array ends as the specification's whole array.
-/
import proofs.«165927_j45088566673863_2_alg».proof.Proof.KernelIdealFrame
import proofs.«165927_j45088566673863_2_alg».proof.Proof.KernelIdealBlock
import proofs.«165927_j45088566673863_2_alg».proof.Proof.KernelIdealHost
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr Cert.KernelIdeal.Pay Cert.KernelIdeal.Block Cert.KernelIdeal.Host
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The fused parameters as the grid finds them -/

/-- The fused input-side weight matrix as the grid finds it: the four gates' input-side weights, each transposed, side
    by side, rounded to sixteen bits. -/
theorem V_wx (c : Dev nD) : @Eq (FVec Ideal S1024x4096 .bf16) (V m c main_v5)
    (truncf (F := Ideal) .bf16 (concatenate S1024x4096 1
        [⟨S1024x1024, transpose S1024x1024 [1, 0] ((m ((c : Thread nD τ).loc main_arg3)) : FVec Ideal S1024x1024 .f32) transposes_S1024x1024_S1024x1024_1_0⟩,
         ⟨S1024x1024, transpose S1024x1024 [1, 0] ((m ((c : Thread nD τ).loc main_arg7)) : FVec Ideal S1024x1024 .f32) transposes_S1024x1024_S1024x1024_1_0⟩,
         ⟨S1024x1024, transpose S1024x1024 [1, 0] ((m ((c : Thread nD τ).loc main_arg11)) : FVec Ideal S1024x1024 .f32) transposes_S1024x1024_S1024x1024_1_0⟩,
         ⟨S1024x1024, transpose S1024x1024 [1, 0] ((m ((c : Thread nD τ).loc main_arg15)) : FVec Ideal S1024x1024 .f32) transposes_S1024x1024_S1024x1024_1_0⟩]
        concatenates_S1024x1024_S1024x1024_S1024x1024_S1024x1024_S1024x4096_d1) bitsLt_bf16_f32) := by
  dsimp only [V, hostOps0]
  after_results
  rfl

/-- The fused hidden-side weight matrix as the grid finds it. -/
theorem V_wh (c : Dev nD) : @Eq (FVec Ideal S1024x4096 .bf16) (V m c main_v11)
    (truncf (F := Ideal) .bf16 (concatenate S1024x4096 1
        [⟨S1024x1024, transpose S1024x1024 [1, 0] ((m ((c : Thread nD τ).loc main_arg5)) : FVec Ideal S1024x1024 .f32) transposes_S1024x1024_S1024x1024_1_0⟩,
         ⟨S1024x1024, transpose S1024x1024 [1, 0] ((m ((c : Thread nD τ).loc main_arg9)) : FVec Ideal S1024x1024 .f32) transposes_S1024x1024_S1024x1024_1_0⟩,
         ⟨S1024x1024, transpose S1024x1024 [1, 0] ((m ((c : Thread nD τ).loc main_arg13)) : FVec Ideal S1024x1024 .f32) transposes_S1024x1024_S1024x1024_1_0⟩,
         ⟨S1024x1024, transpose S1024x1024 [1, 0] ((m ((c : Thread nD τ).loc main_arg17)) : FVec Ideal S1024x1024 .f32) transposes_S1024x1024_S1024x1024_1_0⟩]
        concatenates_S1024x1024_S1024x1024_S1024x1024_S1024x1024_S1024x4096_d1) bitsLt_bf16_f32) := by
  dsimp only [V, hostOps0]
  after_results
  rfl

/-- The fused bias row as the grid finds it: the four sums of bias pairs end to end, as one row. -/
theorem V_b (c : Dev nD) : @Eq (FVec Ideal S1x4096 .f32) (V m c main_v17)
    (shapeCast S1x4096 (concatenate S4096 0
        [⟨S1024, addf (F := Ideal) ((m ((c : Thread nD τ).loc main_arg4)) : FVec Ideal S1024 .f32) (m ((c : Thread nD τ).loc main_arg6))⟩,
         ⟨S1024, addf (F := Ideal) ((m ((c : Thread nD τ).loc main_arg8)) : FVec Ideal S1024 .f32) (m ((c : Thread nD τ).loc main_arg10))⟩,
         ⟨S1024, addf (F := Ideal) ((m ((c : Thread nD τ).loc main_arg12)) : FVec Ideal S1024 .f32) (m ((c : Thread nD τ).loc main_arg14))⟩,
         ⟨S1024, addf (F := Ideal) ((m ((c : Thread nD τ).loc main_arg16)) : FVec Ideal S1024 .f32) (m ((c : Thread nD τ).loc main_arg18))⟩]
        concatenates_S1024_S1024_S1024_S1024_S4096_d0) shapeCasts_S4096_S1x4096) := by
  dsimp only [V, hostOps0]
  after_results
  rfl

/-- The four gates' parameters in core `c`'s memory: input, forget, candidate, output. -/
def gates (c : Dev nD) : Fin 4 → Cert.Lstm.Gate :=
  ![⟨(m ((c : Thread nD τ).loc main_arg3)), (m ((c : Thread nD τ).loc main_arg4)), (m ((c : Thread nD τ).loc main_arg5)), (m ((c : Thread nD τ).loc main_arg6))⟩, ⟨(m ((c : Thread nD τ).loc main_arg7)), (m ((c : Thread nD τ).loc main_arg8)), (m ((c : Thread nD τ).loc main_arg9)), (m ((c : Thread nD τ).loc main_arg10))⟩, ⟨(m ((c : Thread nD τ).loc main_arg11)), (m ((c : Thread nD τ).loc main_arg12)), (m ((c : Thread nD τ).loc main_arg13)), (m ((c : Thread nD τ).loc main_arg14))⟩, ⟨(m ((c : Thread nD τ).loc main_arg15)), (m ((c : Thread nD τ).loc main_arg16)), (m ((c : Thread nD τ).loc main_arg17)), (m ((c : Thread nD τ).loc main_arg18))⟩]

theorem wx_at (c : Dev nD) (k : Fin 1024) (g : Fin 4) (j : Fin 1024) :
    (V m c main_v5 : FVec Ideal S1024x4096 .bf16) (ix2 k (col g j)) = (gates m c g).wi (ix2 j k) := by
  rw [V_wx]
  exact fusedWeight_apply (fun g' => (gates m c g').wi) k g j

theorem wh_at (c : Dev nD) (k : Fin 1024) (g : Fin 4) (j : Fin 1024) :
    (V m c main_v11 : FVec Ideal S1024x4096 .bf16) (ix2 k (col g j)) = (gates m c g).wh (ix2 j k) := by
  rw [V_wh]
  exact fusedWeight_apply (fun g' => (gates m c g').wh) k g j

theorem b_at (c : Dev nD) (g : Fin 4) (j : Fin 1024) :
    (V m c main_v17 : FVec Ideal S1x4096 .f32) (ix2 (0 : Fin 1) (col g j)) = (gates m c g).bi (ix1 j) + (gates m c g).bh (ix1 j) := by
  rw [V_b]
  exact fusedBias_apply (fun g' => (gates m c g').bi) (fun g' => (gates m c g').bh) 0 g j

/-! ## The windows' blocks at a point -/

/-- Where each window's block sits at point `t`: the five row windows at block `t` of the rows, the three whole
    windows at the origin (decided over the sixteen points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- A grid point as a number below sixteen. -/
def pt (t : Fin cfg0.N) : Fin 16 := ⟨t.val, lt_of_lt_of_eq t.isLt N_0⟩

theorem hz : (![0, 0] : Fin 2 → Nat) = fun _ => 0 := funext fun a => by fin_cases a <;> rfl

/-- Row `p` of window 0's block at point `t` is row 256·t+p of its argument array. -/
theorem rows0_at (c : Dev nD) (t : Fin cfg0.N) (p : Fin 256) (k : Fin 1024) :
    (iblk m c 0 t : FVec Ideal S256x1024 .f32) (ix2 p k) = (m ((c : Thread nD τ).loc main_arg0)) (ix2 (row (pt t) p) k) := by
  have hemb : ((cfg0.win 0).blk t).view.emb (ix2 p k) = ix2 (row (pt t) p) k := by
    funext a; apply Fin.ext
    have hf := idx_facts t
    match a with
    | ⟨0, _⟩ => show win0_0.index t (0 : Fin 2) * 256 + 1 * p.val = 256 * t.val + p.val; omega
    | ⟨1, _⟩ => show win0_0.index t (1 : Fin 2) * 1024 + 1 * k.val = k.val; omega
  show V m c main_arg0 (((cfg0.win 0).blk t).view.emb (ix2 p k)) = _
  rw [hemb, V_main_arg0]

/-- Row `p` of window 1's block at point `t` is row 256·t+p of its argument array. -/
theorem rows1_at (c : Dev nD) (t : Fin cfg0.N) (p : Fin 256) (k : Fin 1024) :
    (iblk m c 1 t : FVec Ideal S256x1024 .f32) (ix2 p k) = (m ((c : Thread nD τ).loc main_arg1)) (ix2 (row (pt t) p) k) := by
  have hemb : ((cfg0.win 1).blk t).view.emb (ix2 p k) = ix2 (row (pt t) p) k := by
    funext a; apply Fin.ext
    have hf := idx_facts t
    match a with
    | ⟨0, _⟩ => show win0_1.index t (0 : Fin 2) * 256 + 1 * p.val = 256 * t.val + p.val; omega
    | ⟨1, _⟩ => show win0_1.index t (1 : Fin 2) * 1024 + 1 * k.val = k.val; omega
  show V m c main_arg1 (((cfg0.win 1).blk t).view.emb (ix2 p k)) = _
  rw [hemb, V_main_arg1]

/-- Row `p` of window 2's block at point `t` is row 256·t+p of its argument array. -/
theorem rows2_at (c : Dev nD) (t : Fin cfg0.N) (p : Fin 256) (k : Fin 1024) :
    (iblk m c 2 t : FVec Ideal S256x1024 .f32) (ix2 p k) = (m ((c : Thread nD τ).loc main_arg2)) (ix2 (row (pt t) p) k) := by
  have hemb : ((cfg0.win 2).blk t).view.emb (ix2 p k) = ix2 (row (pt t) p) k := by
    funext a; apply Fin.ext
    have hf := idx_facts t
    match a with
    | ⟨0, _⟩ => show win0_2.index t (0 : Fin 2) * 256 + 1 * p.val = 256 * t.val + p.val; omega
    | ⟨1, _⟩ => show win0_2.index t (1 : Fin 2) * 1024 + 1 * k.val = k.val; omega
  show V m c main_arg2 (((cfg0.win 2).blk t).view.emb (ix2 p k)) = _
  rw [hemb, V_main_arg2]

/-- The fused input-side weights' block at any point is the whole matrix. -/
theorem wide3_at (c : Dev nD) (t : Fin cfg0.N) (k : Fin 1024) (q : Fin 4096) :
    (iblk m c 3 t : FVec Ideal S1024x4096 .bf16) (ix2 k q) = (V m c main_v5 : FVec Ideal S1024x4096 .bf16) (ix2 k q) := by
  have hemb : ((cfg0.win 3).blk t).view.emb (ix2 k q) = ix2 k q := by
    funext a; apply Fin.ext
    have hf := idx_facts t
    match a with
    | ⟨0, _⟩ => show win0_3.index t (0 : Fin 2) * 1024 + 1 * k.val = k.val; omega
    | ⟨1, _⟩ => show win0_3.index t (1 : Fin 2) * 4096 + 1 * q.val = q.val; omega
  show V m c main_v5 (((cfg0.win 3).blk t).view.emb (ix2 k q)) = _
  rw [hemb]

/-- So is the hidden-side weights'. -/
theorem wide4_at (c : Dev nD) (t : Fin cfg0.N) (k : Fin 1024) (q : Fin 4096) :
    (iblk m c 4 t : FVec Ideal S1024x4096 .bf16) (ix2 k q) = (V m c main_v11 : FVec Ideal S1024x4096 .bf16) (ix2 k q) := by
  have hemb : ((cfg0.win 4).blk t).view.emb (ix2 k q) = ix2 k q := by
    funext a; apply Fin.ext
    have hf := idx_facts t
    match a with
    | ⟨0, _⟩ => show win0_4.index t (0 : Fin 2) * 1024 + 1 * k.val = k.val; omega
    | ⟨1, _⟩ => show win0_4.index t (1 : Fin 2) * 4096 + 1 * q.val = q.val; omega
  show V m c main_v11 (((cfg0.win 4).blk t).view.emb (ix2 k q)) = _
  rw [hemb]

/-- And the bias row's is the whole row. -/
theorem bias5_at (c : Dev nD) (t : Fin cfg0.N) (u : Fin 1) (q : Fin 4096) :
    (iblk m c 5 t : FVec Ideal S1x4096 .f32) (ix2 u q) = (V m c main_v17 : FVec Ideal S1x4096 .f32) (ix2 u q) := by
  have hemb : ((cfg0.win 5).blk t).view.emb (ix2 u q) = ix2 u q := by
    funext a; apply Fin.ext
    have hf := idx_facts t
    match a with
    | ⟨0, _⟩ => show win0_5.index t (0 : Fin 2) * 1 + 1 * u.val = u.val; omega
    | ⟨1, _⟩ => show win0_5.index t (1 : Fin 2) * 4096 + 1 * q.val = q.val; omega
  show V m c main_v17 (((cfg0.win 5).blk t).view.emb (ix2 u q)) = _
  rw [hemb]

/-- At point `t` the six input blocks are the `t`-th row blocks of the three row arguments and the fused parameters of
    the four gates. -/
theorem holds_at (c : Dev nD) (t : Fin cfg0.N) :
    Holds (iblk m c 0 t) (iblk m c 1 t) (iblk m c 2 t) (iblk m c 3 t) (iblk m c 4 t) (iblk m c 5 t)
      (m ((c : Thread nD τ).loc main_arg0)) (m ((c : Thread nD τ).loc main_arg1)) (m ((c : Thread nD τ).loc main_arg2)) (pt t) (gates m c) where
  hx := rows0_at m c t
  hh := rows1_at m c t
  hc := rows2_at m c t
  hwx k g j := (wide3_at m c t k (col g j)).trans (wx_at m c k g j)
  hwh k g j := (wide4_at m c t k (col g j)).trans (wh_at m c k g j)
  hb g j := (bias5_at m c t 0 (col g j)).trans (b_at m c g j)

/-! ## What each point writes back, and the whole arrays -/

/-- What point `t` writes back to the hidden-state array is block `t` of the specification's hidden state. -/
theorem flushed_hidden (c : Dev nD) (t : Fin cfg0.N) :
    (dats m 0 c).flushed 6 t = ((cfg0.win 6).blk t).view.read (Elt Ideal) (Cert.Lstm.hidden ⟨(m ((c : Thread nD τ).loc main_arg3)), (m ((c : Thread nD τ).loc main_arg4)), (m ((c : Thread nD τ).loc main_arg5)), (m ((c : Thread nD τ).loc main_arg6))⟩ ⟨(m ((c : Thread nD τ).loc main_arg7)), (m ((c : Thread nD τ).loc main_arg8)), (m ((c : Thread nD τ).loc main_arg9)), (m ((c : Thread nD τ).loc main_arg10))⟩ ⟨(m ((c : Thread nD τ).loc main_arg11)), (m ((c : Thread nD τ).loc main_arg12)), (m ((c : Thread nD τ).loc main_arg13)), (m ((c : Thread nD τ).loc main_arg14))⟩ ⟨(m ((c : Thread nD τ).loc main_arg15)), (m ((c : Thread nD τ).loc main_arg16)), (m ((c : Thread nD τ).loc main_arg17)), (m ((c : Thread nD τ).loc main_arg18))⟩ (m ((c : Thread nD τ).loc main_arg0)) (m ((c : Thread nD τ).loc main_arg1)) (m ((c : Thread nD τ).loc main_arg2))) := by
  show (cfg0.win 6).cut (grid0.coords t) ((dats m 0 c).after 6 t) = _
  rw [after_hidden]
  unfold newHidden
  rw [View.canon_unit_zero hz]
  simp only [View.ld_unit_zero (S := S256x1024) hz, View.ld_unit_zero (S := S1024x4096) hz, View.ld_unit_zero (S := S1x4096) hz]
  funext y
  obtain ⟨p, j, rfl⟩ : ∃ (p : Fin 256) (j : Fin 1024), y = ix2 p j := ⟨y 0, y 1, eq_ix2 y⟩
  have hemb : ((cfg0.win 6).blk t).view.emb (ix2 p j) = ix2 (row (pt t) p) j := by
    funext a; apply Fin.ext
    have hf := idx_facts t
    match a with
    | ⟨0, _⟩ => show win0_6.index t (0 : Fin 2) * 256 + 1 * p.val = 256 * t.val + p.val; omega
    | ⟨1, _⟩ => show win0_6.index t (1 : Fin 2) * 1024 + 1 * j.val = j.val; omega
  show _ = (Cert.Lstm.hidden ⟨(m ((c : Thread nD τ).loc main_arg3)), (m ((c : Thread nD τ).loc main_arg4)), (m ((c : Thread nD τ).loc main_arg5)), (m ((c : Thread nD τ).loc main_arg6))⟩ ⟨(m ((c : Thread nD τ).loc main_arg7)), (m ((c : Thread nD τ).loc main_arg8)), (m ((c : Thread nD τ).loc main_arg9)), (m ((c : Thread nD τ).loc main_arg10))⟩ ⟨(m ((c : Thread nD τ).loc main_arg11)), (m ((c : Thread nD τ).loc main_arg12)), (m ((c : Thread nD τ).loc main_arg13)), (m ((c : Thread nD τ).loc main_arg14))⟩ ⟨(m ((c : Thread nD τ).loc main_arg15)), (m ((c : Thread nD τ).loc main_arg16)), (m ((c : Thread nD τ).loc main_arg17)), (m ((c : Thread nD τ).loc main_arg18))⟩ (m ((c : Thread nD τ).loc main_arg0)) (m ((c : Thread nD τ).loc main_arg1)) (m ((c : Thread nD τ).loc main_arg2))) (((cfg0.win 6).blk t).view.emb (ix2 p j))
  rw [hemb]
  exact hidden_block (holds_at m c t) p j

/-- An index of the hidden-state array is in point `t`'s block iff its row is among the block's 256. -/
theorem mem_blk_hidden (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v18_0).slice (win0_6.rect t)).set ↔ _
  rw [View.set_slice_whole, Rect.mem_set_unit]
  exact Iff.rfl

/-- The sixteen blocks cover the array: row r lies in block r / 256. -/
theorem cover_hidden (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  let t : Fin cfg0.N := ⟨(i 0).val / 256, by rw [show cfg0.N = 16 from N_0]; omega⟩
  have hf := idx_facts t
  have ht : t.val = (i 0).val / 256 := rfl
  refine ⟨t, flush0_6 t, ?_⟩
  rw [mem_blk_hidden]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The hidden-state array after the run is the specification's. -/
theorem final_hidden (c : Dev nD) : (dats m 0 c).arrAt 6 cfg0.N = (Cert.Lstm.hidden ⟨(m ((c : Thread nD τ).loc main_arg3)), (m ((c : Thread nD τ).loc main_arg4)), (m ((c : Thread nD τ).loc main_arg5)), (m ((c : Thread nD τ).loc main_arg6))⟩ ⟨(m ((c : Thread nD τ).loc main_arg7)), (m ((c : Thread nD τ).loc main_arg8)), (m ((c : Thread nD τ).loc main_arg9)), (m ((c : Thread nD τ).loc main_arg10))⟩ ⟨(m ((c : Thread nD τ).loc main_arg11)), (m ((c : Thread nD τ).loc main_arg12)), (m ((c : Thread nD τ).loc main_arg13)), (m ((c : Thread nD τ).loc main_arg14))⟩ ⟨(m ((c : Thread nD τ).loc main_arg15)), (m ((c : Thread nD τ).loc main_arg16)), (m ((c : Thread nD τ).loc main_arg17)), (m ((c : Thread nD τ).loc main_arg18))⟩ (m ((c : Thread nD τ).loc main_arg0)) (m ((c : Thread nD τ).loc main_arg1)) (m ((c : Thread nD τ).loc main_arg2))) :=
  (dats m 0 c).arrAt_eq_of_cover 6 _ (fun t _ => flushed_hidden m c t) cover_hidden

/-- What point `t` writes back to the cell-state array is block `t` of the specification's cell state. -/
theorem flushed_cell (c : Dev nD) (t : Fin cfg0.N) :
    (dats m 0 c).flushed 7 t = ((cfg0.win 7).blk t).view.read (Elt Ideal) (Cert.Lstm.cell ⟨(m ((c : Thread nD τ).loc main_arg3)), (m ((c : Thread nD τ).loc main_arg4)), (m ((c : Thread nD τ).loc main_arg5)), (m ((c : Thread nD τ).loc main_arg6))⟩ ⟨(m ((c : Thread nD τ).loc main_arg7)), (m ((c : Thread nD τ).loc main_arg8)), (m ((c : Thread nD τ).loc main_arg9)), (m ((c : Thread nD τ).loc main_arg10))⟩ ⟨(m ((c : Thread nD τ).loc main_arg11)), (m ((c : Thread nD τ).loc main_arg12)), (m ((c : Thread nD τ).loc main_arg13)), (m ((c : Thread nD τ).loc main_arg14))⟩ (m ((c : Thread nD τ).loc main_arg0)) (m ((c : Thread nD τ).loc main_arg1)) (m ((c : Thread nD τ).loc main_arg2))) := by
  show (cfg0.win 7).cut (grid0.coords t) ((dats m 0 c).after 7 t) = _
  rw [after_cell]
  unfold newCell
  rw [View.canon_unit_zero hz]
  simp only [View.ld_unit_zero (S := S256x1024) hz, View.ld_unit_zero (S := S1024x4096) hz, View.ld_unit_zero (S := S1x4096) hz]
  funext y
  obtain ⟨p, j, rfl⟩ : ∃ (p : Fin 256) (j : Fin 1024), y = ix2 p j := ⟨y 0, y 1, eq_ix2 y⟩
  have hemb : ((cfg0.win 7).blk t).view.emb (ix2 p j) = ix2 (row (pt t) p) j := by
    funext a; apply Fin.ext
    have hf := idx_facts t
    match a with
    | ⟨0, _⟩ => show win0_7.index t (0 : Fin 2) * 256 + 1 * p.val = 256 * t.val + p.val; omega
    | ⟨1, _⟩ => show win0_7.index t (1 : Fin 2) * 1024 + 1 * j.val = j.val; omega
  show _ = (Cert.Lstm.cell ⟨(m ((c : Thread nD τ).loc main_arg3)), (m ((c : Thread nD τ).loc main_arg4)), (m ((c : Thread nD τ).loc main_arg5)), (m ((c : Thread nD τ).loc main_arg6))⟩ ⟨(m ((c : Thread nD τ).loc main_arg7)), (m ((c : Thread nD τ).loc main_arg8)), (m ((c : Thread nD τ).loc main_arg9)), (m ((c : Thread nD τ).loc main_arg10))⟩ ⟨(m ((c : Thread nD τ).loc main_arg11)), (m ((c : Thread nD τ).loc main_arg12)), (m ((c : Thread nD τ).loc main_arg13)), (m ((c : Thread nD τ).loc main_arg14))⟩ (m ((c : Thread nD τ).loc main_arg0)) (m ((c : Thread nD τ).loc main_arg1)) (m ((c : Thread nD τ).loc main_arg2))) (((cfg0.win 7).blk t).view.emb (ix2 p j))
  rw [hemb]
  exact cell_block (holds_at m c t) p j

/-- An index of the cell-state array is in point `t`'s block iff its row is among the block's 256. -/
theorem mem_blk_cell (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v18_1).slice (win0_7.rect t)).set ↔ _
  rw [View.set_slice_whole, Rect.mem_set_unit]
  exact Iff.rfl

/-- The sixteen blocks cover the array: row r lies in block r / 256. -/
theorem cover_cell (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  let t : Fin cfg0.N := ⟨(i 0).val / 256, by rw [show cfg0.N = 16 from N_0]; omega⟩
  have hf := idx_facts t
  have ht : t.val = (i 0).val / 256 := rfl
  refine ⟨t, flush0_7 t, ?_⟩
  rw [mem_blk_cell]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The cell-state array after the run is the specification's. -/
theorem final_cell (c : Dev nD) : (dats m 0 c).arrAt 7 cfg0.N = (Cert.Lstm.cell ⟨(m ((c : Thread nD τ).loc main_arg3)), (m ((c : Thread nD τ).loc main_arg4)), (m ((c : Thread nD τ).loc main_arg5)), (m ((c : Thread nD τ).loc main_arg6))⟩ ⟨(m ((c : Thread nD τ).loc main_arg7)), (m ((c : Thread nD τ).loc main_arg8)), (m ((c : Thread nD τ).loc main_arg9)), (m ((c : Thread nD τ).loc main_arg10))⟩ ⟨(m ((c : Thread nD τ).loc main_arg11)), (m ((c : Thread nD τ).loc main_arg12)), (m ((c : Thread nD τ).loc main_arg13)), (m ((c : Thread nD τ).loc main_arg14))⟩ (m ((c : Thread nD τ).loc main_arg0)) (m ((c : Thread nD τ).loc main_arg1)) (m ((c : Thread nD τ).loc main_arg2))) :=
  (dats m 0 c).arrAt_eq_of_cover 7 _ (fun t _ => flushed_cell m c t) cover_cell

/-! ## The run, read -/

/-- Every weakly fair execution of the kernel program terminates with its two results the specification's hidden and cell
    states of the argument arrays, and the arguments unchanged. -/
theorem run : θ_run defs (onTc (τ := τ) (main (F := Ideal))) ⟨m, fun _ => 0, ρ⟩ fun r => ∀ c : Dev nD,
      r.2.mem ((c.tc : Thread nD τ).loc main_v18_0) = Cert.Lstm.hidden ⟨(m ((c.tc : Thread nD τ).loc main_arg3)), (m ((c.tc : Thread nD τ).loc main_arg4)), (m ((c.tc : Thread nD τ).loc main_arg5)), (m ((c.tc : Thread nD τ).loc main_arg6))⟩ ⟨(m ((c.tc : Thread nD τ).loc main_arg7)), (m ((c.tc : Thread nD τ).loc main_arg8)), (m ((c.tc : Thread nD τ).loc main_arg9)), (m ((c.tc : Thread nD τ).loc main_arg10))⟩ ⟨(m ((c.tc : Thread nD τ).loc main_arg11)), (m ((c.tc : Thread nD τ).loc main_arg12)), (m ((c.tc : Thread nD τ).loc main_arg13)), (m ((c.tc : Thread nD τ).loc main_arg14))⟩ ⟨(m ((c.tc : Thread nD τ).loc main_arg15)), (m ((c.tc : Thread nD τ).loc main_arg16)), (m ((c.tc : Thread nD τ).loc main_arg17)), (m ((c.tc : Thread nD τ).loc main_arg18))⟩ (m ((c.tc : Thread nD τ).loc main_arg0)) (m ((c.tc : Thread nD τ).loc main_arg1)) (m ((c.tc : Thread nD τ).loc main_arg2))
      ∧ r.2.mem ((c.tc : Thread nD τ).loc main_v18_1) = Cert.Lstm.cell ⟨(m ((c.tc : Thread nD τ).loc main_arg3)), (m ((c.tc : Thread nD τ).loc main_arg4)), (m ((c.tc : Thread nD τ).loc main_arg5)), (m ((c.tc : Thread nD τ).loc main_arg6))⟩ ⟨(m ((c.tc : Thread nD τ).loc main_arg7)), (m ((c.tc : Thread nD τ).loc main_arg8)), (m ((c.tc : Thread nD τ).loc main_arg9)), (m ((c.tc : Thread nD τ).loc main_arg10))⟩ ⟨(m ((c.tc : Thread nD τ).loc main_arg11)), (m ((c.tc : Thread nD τ).loc main_arg12)), (m ((c.tc : Thread nD τ).loc main_arg13)), (m ((c.tc : Thread nD τ).loc main_arg14))⟩ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (final_hidden m c), ((h c).1 7).trans (final_cell m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main (F := Ideal) m ρ)

end Cert.KernelIdeal.Val

end
-- ==== Proof.RefCell.lean ====
/-
  The reference program computes the LSTM cell of the specification.

  The program is printed as 74 array operations.  Read at one position (r, c) of a 4096 × 1024 result they are:
  a contraction  Σₖ x[r,k] · wᵀ[k,c]  with  wᵀ[k,c] = w[c,k]  (the transposed weight), to which a bias is added that was
  first made a 1 × 1024 row and then repeated down the 4096 rows, so that it is read at c alone; two such affine
  maps, one of the input row and one of the hidden row, added: a gate's pre-activation.  The quotient
  1 / (1 + e^(-t)), with both ones the float whose value is the real number one, is the logistic function of t by
  definition; the hyperbolic tangent is the specification's.  The four gates are one text at four sets of arrays, so
  each fact is proved once, for arbitrary arrays, and read off at the other three.  Nothing is assumed finite.
-/
import proofs.«165927_j45088566673863_2_alg».proof.Proof.Gen.ReferenceIdeal.Read
import proofs.«165927_j45088566673863_2_alg».proof.Proof.LstmSpec
import Idealize.ShloMosaic.Lib.IdealHost

noncomputable section

namespace Cert.ReferenceIdeal.Cell

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open scoped BigOperators

/-! ## One gate, at arbitrary arrays -/

section Gate

variable (x h : (⟨S4096x1024, .f32⟩ : BufTy).Contents (Elt Ideal))
  (wi : (⟨S1024x1024, .f32⟩ : BufTy).Contents (Elt Ideal)) (bi : (⟨S1024, .f32⟩ : BufTy).Contents (Elt Ideal))
  (wh : (⟨S1024x1024, .f32⟩ : BufTy).Contents (Elt Ideal)) (bh : (⟨S1024, .f32⟩ : BufTy).Contents (Elt Ideal))

/-- The product with the transposed weight at (r, c) is row r of x against row c of w: the left operand is read at
    (r, k), the transposed right operand at (k, c), which is the weight at (c, k). -/
theorem proj_at (r : Fin 4096) (c : Fin 1024) :
    val_main_v1 (F := Ideal) x wi (ix2 r c) = Cert.Lstm.proj x wi r c := by
  rw [val_main_v1_apply]
  unfold Cert.Lstm.proj
  refine Finset.sum_congr rfl fun k _ => ?_
  rw [val_main_v0_apply]
  have el : lidx_main_v1 (ix2 r c) k = ix2 r k :=
    funext fun a => Fin.ext (by match a with | ⟨0, _⟩ => rfl | ⟨1, _⟩ => rfl)
  have er : idx_main_v0 (ridx_main_v1 (ix2 r c) k) = ix2 c k :=
    funext fun a => Fin.ext (by match a with | ⟨0, _⟩ => rfl | ⟨1, _⟩ => rfl)
  rw [el, er]

/-- The bias, made a row and repeated down the rows, is read at the column alone. -/
theorem bias_at (r : Fin 4096) (c : Fin 1024) : val_main_v3 (F := Ideal) bi (ix2 r c) = bi (ix1 c) := by
  rw [val_main_v3_apply, val_main_v2_apply]
  exact congrArg bi (funext fun a => Fin.ext (by match a with | ⟨0, _⟩ => rfl))

/-- A gate's pre-activation: the two affine maps, added. -/
theorem pre_at (r : Fin 4096) (c : Fin 1024) :
    val_main_v10 (F := Ideal) x h wi bi wh bh (ix2 r c) = Cert.Lstm.Gate.pre ⟨wi, bi, wh, bh⟩ x h r c := by
  have e6 : val_main_v6 (F := Ideal) h wh = val_main_v1 (F := Ideal) h wh := rfl
  have e8 : val_main_v8 (F := Ideal) bh = val_main_v3 (F := Ideal) bh := rfl
  rw [val_main_v10_apply, val_main_v4_apply, val_main_v9_apply, e6, e8, proj_at, proj_at, bias_at, bias_at]
  rfl

/-- The quotient 1 / (1 + e^(-t)) at the pre-activation is its logistic function: both ones are the float whose value
    is the real number one. -/
theorem logistic_at (r : Fin 4096) (c : Fin 1024) :
    val_main_v16 (F := Ideal) x h wi bi wh bh (ix2 r c)
      = Ideal.logistic (Cert.Lstm.Gate.pre ⟨wi, bi, wh, bh⟩ x h r c) := by
  rw [val_main_v16_apply, val_main_v15_apply, val_main_cst_0_apply, val_main_v14_apply, val_main_v13_apply,
    val_main_cst_apply, val_main_v12_apply, val_main_v11_apply, pre_at]
  simp only [Ideal.hostDivf_def, Ideal.addf_def, Ideal.hostUnary_exp_def, Ideal.hostNegf_def, Ideal.negf_def,
    Ideal.ofBits_def, Ideal.ofBits_one_f32]
  exact Cert.Lstm.logistic_eq _

/-- The hyperbolic tangent of the pre-activation. -/
theorem tanh_at (r : Fin 4096) (c : Fin 1024) :
    val_main_v45 (F := Ideal) x h wi bi wh bh (ix2 r c)
      = Ideal.tanh (Cert.Lstm.Gate.pre ⟨wi, bi, wh, bh⟩ x h r c) := by
  have e44 : val_main_v44 (F := Ideal) x h wi bi wh bh = val_main_v10 (F := Ideal) x h wi bi wh bh := rfl
  rw [val_main_v45_apply, e44, pre_at]
  rfl

/-- The second logistic stage is the first one's text, at its own arrays. -/
theorem logistic_at' (r : Fin 4096) (c : Fin 1024) :
    val_main_v33 (F := Ideal) x h wi bi wh bh (ix2 r c)
      = Ideal.logistic (Cert.Lstm.Gate.pre ⟨wi, bi, wh, bh⟩ x h r c) :=
  logistic_at x h wi bi wh bh r c

/-- So is the third. -/
theorem logistic_at'' (r : Fin 4096) (c : Fin 1024) :
    val_main_v62 (F := Ideal) x h wi bi wh bh (ix2 r c)
      = Ideal.logistic (Cert.Lstm.Gate.pre ⟨wi, bi, wh, bh⟩ x h r c) :=
  logistic_at x h wi bi wh bh r c

end Gate

/-! ## The two results -/

/-- The new cell state at (r, c): σ(pre_f) · c + σ(pre_i) · tanh(pre_g). -/
theorem cell_at (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))
    (r : Fin 4096) (c : Fin 1024) :
    val_main_v65 (F := Ideal) x0 x1 x2 x3 x4 x5 x6 x7 x8 x9 x10 x11 x12 x13 x14 (ix2 r c)
      = Cert.Lstm.cellAt ⟨x3, x4, x5, x6⟩ ⟨x7, x8, x9, x10⟩ ⟨x11, x12, x13, x14⟩ x0 x1 x2 r c := by
  rw [val_main_v65_apply, val_main_v63_apply, val_main_v64_apply, logistic_at', logistic_at, tanh_at]
  rfl

/-- The new hidden state at (r, c): σ(pre_o) · tanh(c'). -/
theorem hidden_at (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal))
    (r : Fin 4096) (c : Fin 1024) :
    val_main_v67 (F := Ideal) x0 x1 x2 x3 x4 x5 x6 x7 x8 x9 x10 x11 x12 x13 x14 x15 x16 x17 x18 (ix2 r c)
      = Cert.Lstm.hiddenAt ⟨x3, x4, x5, x6⟩ ⟨x7, x8, x9, x10⟩ ⟨x11, x12, x13, x14⟩ ⟨x15, x16, x17, x18⟩ x0 x1 x2 r c := by
  rw [val_main_v67_apply, val_main_v66_apply, logistic_at'', cell_at]
  rfl

/-- The reference's second result is the specification's cell state. -/
theorem cell_eq (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) :
    val_main_v65 (F := Ideal) x0 x1 x2 x3 x4 x5 x6 x7 x8 x9 x10 x11 x12 x13 x14
      = Cert.Lstm.cell ⟨x3, x4, x5, x6⟩ ⟨x7, x8, x9, x10⟩ ⟨x11, x12, x13, x14⟩ x0 x1 x2 := by
  funext j
  obtain ⟨r, c, rfl⟩ : ∃ (r : Fin 4096) (c : Fin 1024), j = ix2 r c := ⟨j 0, j 1, eq_ix2 j⟩
  exact cell_at x0 x1 x2 x3 x4 x5 x6 x7 x8 x9 x10 x11 x12 x13 x14 r c

/-- The reference's first result is the specification's hidden state. -/
theorem hidden_eq (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    val_main_v67 (F := Ideal) x0 x1 x2 x3 x4 x5 x6 x7 x8 x9 x10 x11 x12 x13 x14 x15 x16 x17 x18
      = Cert.Lstm.hidden ⟨x3, x4, x5, x6⟩ ⟨x7, x8, x9, x10⟩ ⟨x11, x12, x13, x14⟩ ⟨x15, x16, x17, x18⟩ x0 x1 x2 := by
  funext j
  obtain ⟨r, c, rfl⟩ : ∃ (r : Fin 4096) (c : Fin 1024), j = ix2 r c := ⟨j 0, j 1, eq_ix2 j⟩
  exact hidden_at x0 x1 x2 x3 x4 x5 x6 x7 x8 x9 x10 x11 x12 x13 x14 x15 x16 x17 x18 r c

/-! ## The run -/

/-- On every device, from any memory with zero counters: every weakly fair execution of the reference terminates with
    its two results the specification's hidden and cell states of the argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = Cert.Lstm.hidden ⟨(m ((c.tc : Thread nD τ).loc main_arg3)), (m ((c.tc : Thread nD τ).loc main_arg4)), (m ((c.tc : Thread nD τ).loc main_arg5)), (m ((c.tc : Thread nD τ).loc main_arg6))⟩ ⟨(m ((c.tc : Thread nD τ).loc main_arg7)), (m ((c.tc : Thread nD τ).loc main_arg8)), (m ((c.tc : Thread nD τ).loc main_arg9)), (m ((c.tc : Thread nD τ).loc main_arg10))⟩ ⟨(m ((c.tc : Thread nD τ).loc main_arg11)), (m ((c.tc : Thread nD τ).loc main_arg12)), (m ((c.tc : Thread nD τ).loc main_arg13)), (m ((c.tc : Thread nD τ).loc main_arg14))⟩ ⟨(m ((c.tc : Thread nD τ).loc main_arg15)), (m ((c.tc : Thread nD τ).loc main_arg16)), (m ((c.tc : Thread nD τ).loc main_arg17)), (m ((c.tc : Thread nD τ).loc main_arg18))⟩ (m ((c.tc : Thread nD τ).loc main_arg0)) (m ((c.tc : Thread nD τ).loc main_arg1)) (m ((c.tc : Thread nD τ).loc main_arg2))
      ∧ r.2.mem ((c.tc : Thread nD τ).loc main_v65) = Cert.Lstm.cell ⟨(m ((c.tc : Thread nD τ).loc main_arg3)), (m ((c.tc : Thread nD τ).loc main_arg4)), (m ((c.tc : Thread nD τ).loc main_arg5)), (m ((c.tc : Thread nD τ).loc main_arg6))⟩ ⟨(m ((c.tc : Thread nD τ).loc main_arg7)), (m ((c.tc : Thread nD τ).loc main_arg8)), (m ((c.tc : Thread nD τ).loc main_arg9)), (m ((c.tc : Thread nD τ).loc main_arg10))⟩ ⟨(m ((c.tc : Thread nD τ).loc main_arg11)), (m ((c.tc : Thread nD τ).loc main_arg12)), (m ((c.tc : Thread nD τ).loc main_arg13)), (m ((c.tc : Thread nD τ).loc main_arg14))⟩ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => by
      obtain ⟨h67, h65, hargs⟩ := h c
      refine ⟨?_, ?_, hargs⟩
      · rw [h67, val_main_v67_eq, hidden_eq]
      · rw [h65, val_main_v65_eq, cell_eq])
    (Cert.ReferenceIdeal.Value.run (F := Ideal) m ρ)

end Cert.ReferenceIdeal.Cell

end
-- ==== Proof.lean ====
/-
  An LSTM cell computed by a gridded kernel equals the same cell computed by plain array operations, on the extended
  reals.

  Both programs take an input batch, a hidden state and a cell state (4096 rows of 1024 features each) and, for each
  of four gates, two weight matrices and two biases.  Both return the new hidden state and the new cell state of
  `Proof/LstmSpec.lean`.

  * The array program is read operation by operation: each gate's pre-activation is (product + bias) +
    (product + bias), the quotient 1 / (1 + e^(-t)) is the logistic function by definition, and the results are the
    specification's (`Proof/RefCell.lean`).
  * The kernel program first fuses the parameters — transposed weights side by side, summed biases end to end —
    and then runs sixteen grid points of 256 rows each; a point forms (product + product) + (bias + bias) for all four
    gates at once, applies the logistic function and the hyperbolic tangent, and stores its rows of the two results.
    Regrouping a sum of four extended reals changes nothing, so each point stores the specification's rows, and the
    sixteen blocks cover the arrays (`Proof/KernelIdealPayload.lean`, `…Block.lean`, `…Host.lean`,
    `…Value.lean`).
  * Each program terminates without a fault and leaves its argument arrays as launched: the kernel programs because
    no host operation and no write-back touches an argument (`Proof/KernelFrame.lean`, `Proof/KernelIdealFrame.lean`),
    the array program because it writes fresh buffers only.
  * The idealized kernel is the kernel's own text read on the extended reals: nothing was rewritten.

  No input is assumed finite anywhere: the only law used is that addition is commutative and associative.
-/
import proofs.«165927_j45088566673863_2_alg».proof.Defs
import proofs.«165927_j45088566673863_2_alg».proof.Proof.Gen.Kernel
import proofs.«165927_j45088566673863_2_alg».proof.Proof.Gen.KernelIdeal
import proofs.«165927_j45088566673863_2_alg».proof.Proof.Gen.ReferenceIdeal
import proofs.«165927_j45088566673863_2_alg».proof.Proof.Gen.ReferenceIdeal.Read
import proofs.«165927_j45088566673863_2_alg».proof.Proof.Gen.Pre_finite_inputs
import proofs.«165927_j45088566673863_2_alg».proof.Proof.KernelFrame
import proofs.«165927_j45088566673863_2_alg».proof.Proof.KernelIdealFrame
import proofs.«165927_j45088566673863_2_alg».proof.Proof.KernelIdealValue
import proofs.«165927_j45088566673863_2_alg».proof.Proof.RefCell
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel := fun m ρ _ => Cert.Kernel.Fr.frame m ρ

/-- So does the kernel program on the extended reals. -/
theorem frame_kernelIdeal : Cert.frame_KernelIdeal := fun m ρ _ => Cert.KernelIdeal.Fr.frame m ρ

/-- And the array program: its run, with the two results forgotten. -/
theorem frame_referenceIdeal : Cert.frame_ReferenceIdeal := fun m ρ _ =>
  (θ_run Cert.ReferenceIdeal.defs _ _).mono (fun _ h c => (h c).2.2) (Cert.ReferenceIdeal.Cell.run m ρ)

/-- The idealization rewrote nothing. -/
theorem preserves : Cert.preserves_Kernel_KernelIdeal := trivial

/-- The specification's hidden state depends on the nineteen arrays only. -/
theorem hidden_congr {a0 b0 : Cert.Lstm.Rows.Idx → EReal} {a1 b1 : Cert.Lstm.Rows.Idx → EReal} {a2 b2 : Cert.Lstm.Rows.Idx → EReal} {a3 b3 : Cert.Lstm.Wts.Idx → EReal} {a4 b4 : Cert.Lstm.Bias.Idx → EReal} {a5 b5 : Cert.Lstm.Wts.Idx → EReal} {a6 b6 : Cert.Lstm.Bias.Idx → EReal} {a7 b7 : Cert.Lstm.Wts.Idx → EReal} {a8 b8 : Cert.Lstm.Bias.Idx → EReal} {a9 b9 : Cert.Lstm.Wts.Idx → EReal} {a10 b10 : Cert.Lstm.Bias.Idx → EReal} {a11 b11 : Cert.Lstm.Wts.Idx → EReal} {a12 b12 : Cert.Lstm.Bias.Idx → EReal} {a13 b13 : Cert.Lstm.Wts.Idx → EReal} {a14 b14 : Cert.Lstm.Bias.Idx → EReal} {a15 b15 : Cert.Lstm.Wts.Idx → EReal} {a16 b16 : Cert.Lstm.Bias.Idx → EReal} {a17 b17 : Cert.Lstm.Wts.Idx → EReal} {a18 b18 : Cert.Lstm.Bias.Idx → EReal}
    (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10) (e11 : a11 = b11) (e12 : a12 = b12) (e13 : a13 = b13) (e14 : a14 = b14) (e15 : a15 = b15) (e16 : a16 = b16) (e17 : a17 = b17) (e18 : a18 = b18) :
    Cert.Lstm.hidden ⟨a3, a4, a5, a6⟩ ⟨a7, a8, a9, a10⟩ ⟨a11, a12, a13, a14⟩ ⟨a15, a16, a17, a18⟩ a0 a1 a2
      = Cert.Lstm.hidden ⟨b3, b4, b5, b6⟩ ⟨b7, b8, b9, b10⟩ ⟨b11, b12, b13, b14⟩ ⟨b15, b16, b17, b18⟩ b0 b1 b2 := by
  subst e0 e1 e2 e3 e4 e5 e6 e7 e8 e9 e10 e11 e12 e13 e14 e15 e16 e17 e18; rfl

/-- And its cell state on fifteen of them. -/
theorem cell_congr {a0 b0 : Cert.Lstm.Rows.Idx → EReal} {a1 b1 : Cert.Lstm.Rows.Idx → EReal} {a2 b2 : Cert.Lstm.Rows.Idx → EReal} {a3 b3 : Cert.Lstm.Wts.Idx → EReal} {a4 b4 : Cert.Lstm.Bias.Idx → EReal} {a5 b5 : Cert.Lstm.Wts.Idx → EReal} {a6 b6 : Cert.Lstm.Bias.Idx → EReal} {a7 b7 : Cert.Lstm.Wts.Idx → EReal} {a8 b8 : Cert.Lstm.Bias.Idx → EReal} {a9 b9 : Cert.Lstm.Wts.Idx → EReal} {a10 b10 : Cert.Lstm.Bias.Idx → EReal} {a11 b11 : Cert.Lstm.Wts.Idx → EReal} {a12 b12 : Cert.Lstm.Bias.Idx → EReal} {a13 b13 : Cert.Lstm.Wts.Idx → EReal} {a14 b14 : Cert.Lstm.Bias.Idx → EReal}
    (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10) (e11 : a11 = b11) (e12 : a12 = b12) (e13 : a13 = b13) (e14 : a14 = b14) :
    Cert.Lstm.cell ⟨a3, a4, a5, a6⟩ ⟨a7, a8, a9, a10⟩ ⟨a11, a12, a13, a14⟩ a0 a1 a2
      = Cert.Lstm.cell ⟨b3, b4, b5, b6⟩ ⟨b7, b8, b9, b10⟩ ⟨b11, b12, b13, b14⟩ b0 b1 b2 := by
  subst e0 e1 e2 e3 e4 e5 e6 e7 e8 e9 e10 e11 e12 e13 e14; rfl

/-- From memories that agree on the nineteen arguments, the kernel program ends with the specification's hidden and
    cell states of its arguments, the array program with the specification's of its own, and these are the same
    arrays. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ?_) (Cert.ReferenceIdeal.Cell.run m' ρ')
  obtain ⟨h67, h65, hargs⟩ := h c
  obtain ⟨e0, e1, e2, e3, e4, e5, e6, e7, e8, e9, e10, e11, e12, e13, e14, e15, e16, e17, e18⟩ := hagree c
  refine ⟨?_, ?_, hargs⟩
  · exact h67.trans (hidden_congr e0 e1 e2 e3 e4 e5 e6 e7 e8 e9 e10 e11 e12 e13 e14 e15 e16 e17 e18)
  · exact h65.trans (cell_congr e0 e1 e2 e3 e4 e5 e6 e7 e8 e9 e10 e11 e12 e13 e14)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
